-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S8192x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S2048x1024 : Shape := ⟨2, ![2048, 1024]⟩
abbrev S1024 : Shape := ⟨1, ![1024]⟩
abbrev S1024x1024 : Shape := ⟨2, ![1024, 1024]⟩
abbrev S1024x4096 : Shape := ⟨2, ![1024, 4096]⟩
abbrev S4096 : Shape := ⟨1, ![4096]⟩
abbrev S1x4096 : Shape := ⟨2, ![1, 4096]⟩
abbrev S128x1024 : Shape := ⟨2, ![128, 1024]⟩
abbrev S128x4096 : Shape := ⟨2, ![128, 4096]⟩
abbrev S1x8192x1024 : Shape := ⟨3, ![1, 8192, 1024]⟩
abbrev S2x8192x1024 : Shape := ⟨3, ![2, 8192, 1024]⟩

abbrev nBuf : Space → Nat
  | .hbm => 30
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x4096, .f32⟩
  | .hbm, ⟨16, _⟩ => ⟨S1024x4096, .bf16⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x4096, .f32⟩
  | .hbm, ⟨22, _⟩ => ⟨S1024x4096, .bf16⟩
  | .hbm, ⟨23, _⟩ => ⟨S4096, .f32⟩
  | .hbm, ⟨24, _⟩ => ⟨S1x4096, .f32⟩
  | .hbm, ⟨25, _⟩ => ⟨S8192x1024, .f32⟩
  | .hbm, ⟨26, _⟩ => ⟨S8192x1024, .f32⟩
  | .hbm, ⟨27, _⟩ => ⟨S1x8192x1024, .f32⟩
  | .hbm, ⟨28, _⟩ => ⟨S1x8192x1024, .f32⟩
  | .hbm, ⟨29, _⟩ => ⟨S2x8192x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2048x1024_S1024x1024_0_0 : S2048x1024.Slices ![0, 0] S1024x1024
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  slices_S2048x1024_S1024x1024_1024_0 : S2048x1024.Slices ![1024, 0] S1024x1024
  concatenates_S1024_S1024_S1024_S1024_S4096_d0 : Shape.Concatenates [S1024, S1024, S1024, S1024] S4096 0
  shapeCasts_S4096_S1x4096 : S4096.ShapeCasts S1x4096
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  bcast_S8192x1024_S1x8192x1024_1_2 : S8192x1024.BroadcastsInDim S1x8192x1024 (![1, 2] : Fin 2 → Fin S1x8192x1024.rank)
  concatenates_S1x8192x1024_S1x8192x1024_S2x8192x1024_d0 : Shape.Concatenates [S1x8192x1024, S1x8192x1024] S2x8192x1024 0
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S8192x1024.size a
  hwx0_6 : ∀ i : grid0.Coords, EltTy.bits .f32 = 32 ∨ (Rect.block (s := S8192x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S8192x1024.size a
  hwx0_7 : ∀ i : grid0.Coords, EltTy.bits .f32 = 32 ∨ (Rect.block (s := S8192x1024) S128x1024.size (cc0_transform_7 i) (hinb0_7 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_1) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S1024 : Shape := ⟨1, ![1024]⟩
abbrev S8192x2048 : Shape := ⟨2, ![8192, 2048]⟩
abbrev S2048x4096 : Shape := ⟨2, ![2048, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩
abbrev S1x8192x1024 : Shape := ⟨3, ![1, 8192, 1024]⟩
abbrev S2x8192x1024 : Shape := ⟨3, ![2, 8192, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S8192x2048, .f32⟩
  | .hbm, ⟨12, _⟩ => ⟨S2048x4096, .f32⟩
  | .hbm, ⟨13, _⟩ => ⟨S4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S1x8192x1024, .f32⟩
  | .hbm, ⟨53, _⟩ => ⟨S1x8192x1024, .f32⟩
  | .hbm, ⟨54, _⟩ => ⟨S2x8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  bcast_S8192x1024_S1x8192x1024_1_2 : S8192x1024.BroadcastsInDim S1x8192x1024 (![1, 2] : Fin 2 → Fin S1x8192x1024.rank)
  concatenates_S1x8192x1024_S1x8192x1024_S2x8192x1024_d0 : Shape.Concatenates [S1x8192x1024, S1x8192x1024] S2x8192x1024 0
  dot_S8192x2048_S2048x4096_S8192x4096_1_0_0_1_n_n_wf : DotDims.WF S8192x2048 S2048x4096 S8192x4096 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.BitsAround.lean ====
/-
  The frame of `Kernel`'s @main, at any float instance: host operations, one pipelined region, host operations.

  @main first cuts each of the four weight matrices into its upper and lower 1024 rows, lays the four upper halves
  side by side (and the four lower halves, and the four bias vectors), narrows the two 1024 × 4096 matrices to bf16
  and reshapes the bias to one row; then the region runs the cell body at each of the 64 row blocks; then the two
  results are stacked. Nothing before the region writes an argument array and nothing after it writes an array of
  the pipeline, so the run is the library's frame run around the region: every array of the pipeline ends at what
  the body's stores left block by block, every other buffer at what the last host operations left.

  The body at a point reads the row block of x, of h and of c, the two whole weight matrices and the bias row, and
  stores the two output blocks whole; what it leaves in an output buffer is therefore the one stored payload
  (the cover of the buffer by the one store), a function of the six blocks read.
-/
import proofs.«118060_j19567871001103_1_alg».proof.Proof.Gen.Kernel.Launch
import proofs.«118060_j19567871001103_1_alg».proof.Proof.Gen.Kernel.Skeleton
import proofs.«118060_j19567871001103_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents after the fourteen host
    operations that build the two weight matrices and the bias row. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the three stacking operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The stacking operations touch only arrays of the pipeline and buffers that bypass the region, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline: each writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation after the region writes argument 3, which is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes argument 4, which is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the region writes argument 5, which is no array of the pipeline: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation after the region writes argument 6, which is no array of the pipeline: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation after the region writes argument 7, which is no array of the pipeline: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation after the region writes argument 8, which is no array of the pipeline: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host operation after the region writes argument 9, which is no array of the pipeline: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host operation after the region writes argument 10, which is no array of the pipeline: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (an unfetched
    window's index has not moved), for any proof data over the region-entry arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (an unfetched
    window's index has not moved), for any proof data over the region-entry arrays whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (an unfetched
    window's index has not moved), for any proof data over the region-entry arrays whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (an unfetched
    window's index has not moved), for any proof data over the region-entry arrays whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (an unfetched
    window's index has not moved), for any proof data over the region-entry arrays whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (an unfetched
    window's index has not moved), for any proof data over the region-entry arrays whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after the run -/

/-- After the frame run each argument array holds its launch contents: x, h and c are input windows' arrays, which
    the pipeline only reads; the weights and biases are touched by no window and written by no host operation. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F))
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats 0 c).arrAt_in 0 rfl _).trans ((hA c 0).trans (V_main_arg0 m c))),
   ((h c).1 1).trans (((dats 0 c).arrAt_in 1 rfl _).trans ((hA c 1).trans (V_main_arg1 m c))),
   ((h c).1 2).trans (((dats 0 c).arrAt_in 2 rfl _).trans ((hA c 2).trans (V_main_arg2 m c))),
   ((h c).2 main_arg3 (Pipeline.mem_restRefs_of main_arg3 (by decide) (by decide))).trans (W_main_arg3 m dats c),
   ((h c).2 main_arg4 (Pipeline.mem_restRefs_of main_arg4 (by decide) (by decide))).trans (W_main_arg4 m dats c),
   ((h c).2 main_arg5 (Pipeline.mem_restRefs_of main_arg5 (by decide) (by decide))).trans (W_main_arg5 m dats c),
   ((h c).2 main_arg6 (Pipeline.mem_restRefs_of main_arg6 (by decide) (by decide))).trans (W_main_arg6 m dats c),
   ((h c).2 main_arg7 (Pipeline.mem_restRefs_of main_arg7 (by decide) (by decide))).trans (W_main_arg7 m dats c),
   ((h c).2 main_arg8 (Pipeline.mem_restRefs_of main_arg8 (by decide) (by decide))).trans (W_main_arg8 m dats c),
   ((h c).2 main_arg9 (Pipeline.mem_restRefs_of main_arg9 (by decide) (by decide))).trans (W_main_arg9 m dats c),
   ((h c).2 main_arg10 (Pipeline.mem_restRefs_of main_arg10 (by decide) (by decide))).trans (W_main_arg10 m dats c)⟩

/-! ## What the body leaves in each output buffer -/

/-- The whole row block, the whole weight matrix and the whole bias row: the rectangles the body reads and writes. -/
abbrev rBlk : Rect S128x1024 := Rect.unit (s := S128x1024) ![0, 0] S128x1024.size inb_S128x1024_S128x1024_0_0
abbrev rMat : Rect S1024x4096 := Rect.unit (s := S1024x4096) ![0, 0] S1024x4096.size inb_S1024x4096_S1024x4096_0_0
abbrev rRow : Rect S1x4096 := Rect.unit (s := S1x4096) ![0, 0] S1x4096.size inb_S1x4096_S1x4096_0_0

/-- The new hidden state's buffer after the body: its one store, of the output gate times tanh of the new cell
    state, over the six blocks read. -/
def outH (x h c : Vec F S128x1024 .f32) (wx wh : Vec F S1024x4096 .bf16) (b : Vec F S1x4096 .f32) : Vec F S128x1024 .f32 :=
  View.canon [⟨rBlk, k0_pay3 (View.ld x rBlk) (View.ld h rBlk) (View.ld wx rMat) (View.ld wh rMat) (View.ld b rRow) (View.ld c rBlk)⟩]
/-- The new cell state's buffer after the body: its one store, forget gate times c plus input gate times candidate. -/
def outC (x h c : Vec F S128x1024 .f32) (wx wh : Vec F S1024x4096 .bf16) (b : Vec F S1x4096 .f32) : Vec F S128x1024 .f32 :=
  View.canon [⟨rBlk, k0_pay2 (View.ld x rBlk) (View.ld h rBlk) (View.ld wx rMat) (View.ld wh rMat) (View.ld b rRow) (View.ld c rBlk)⟩]

/-- One store of the whole block covers the buffer. -/
theorem cover_blk (p0 : Vec F S128x1024 .f32) (y : S128x1024.Idx) :
    ∃ pc ∈ ([⟨rBlk, p0⟩] : List (View.Piece (Elt F) S128x1024 .f32)), y ∈ pc.1.set :=
  View.cover_of_tiled [⟨rBlk, p0⟩] S128x1024.size (by rfl) y

/-! ## The body's triple -/

set_option maxHeartbeats 1000000 in
/-- The body on whole staging memrefs — the six inputs' at contents `x h c wx wh b`, the two outputs' at anything —
    runs to the continuation with the inputs' as they were and the outputs' at `outH` and `outC` of the inputs. -/
theorem sound_kernel (cd : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S128x1024 .f32) (harg7 : arg7.IsWhole) (arg8 : Memref sig .tc .vmem S128x1024 .f32) (harg8 : arg8.IsWhole)
    (x h c : Vec F S128x1024 .f32) (wx wh : Vec F S1024x4096 .bf16) (b : Vec F S1x4096 .f32) (K : PUnit → sProp 𝕄) :
    iprop(owns (cd : Thread nD τ) arg1 fullShare x ∗ owns (cd : Thread nD τ) arg2 fullShare h ∗ owns (cd : Thread nD τ) arg3 fullShare c
        ∗ owns (cd : Thread nD τ) arg4 fullShare wx ∗ owns (cd : Thread nD τ) arg5 fullShare wh ∗ owns (cd : Thread nD τ) arg6 fullShare b
        ∗ (∃ d, owns (cd : Thread nD τ) arg7 fullShare d) ∗ (∃ d, owns (cd : Thread nD τ) arg8 fullShare d)
        ∗ (iprop(owns (cd : Thread nD τ) arg1 fullShare x ∗ owns (cd : Thread nD τ) arg2 fullShare h ∗ owns (cd : Thread nD τ) arg3 fullShare c
            ∗ owns (cd : Thread nD τ) arg4 fullShare wx ∗ owns (cd : Thread nD τ) arg5 fullShare wh ∗ owns (cd : Thread nD τ) arg6 fullShare b
            ∗ owns (cd : Thread nD τ) arg7 fullShare (outH x h c wx wh b) ∗ owns (cd : Thread nD τ) arg8 fullShare (outC x h c wx wh b)) -∗ K ⟨⟩))
      ⊢ wp frame (wpE (defs₀ (F := F)) Variants.none cd none) E (cc0__lstm_cell_kernel i arg1 harg1 arg2 harg2 arg3 harg3 arg4 harg4 arg5 harg5 arg6 harg6 arg7 harg7 arg8 harg8) K := by
  simp only [cc0__lstm_cell_kernel_eq_skeleton]; unfold cc0__lstm_cell_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_blk _)
  iexists _; isplitr
  swap; · iexact H8
  ipureintro
  exact View.read_writes_eq_canon _ _ _ (cover_blk _)

/-! ## The pipeline's proof data -/

/-- The proof data of the pipeline on core `c`: the arrays as the region finds them; after the body at point `t`
    each input's buffer at its block and the two outputs' at `outH` and `outC` of the six input blocks; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outH (iblk m c 0 t) (iblk m c 1 t) (iblk m c 2 t) (iblk m c 3 t) (iblk m c 4 t) (iblk m c 5 t) := by dsimp only [dats]
theorem after7 (c : Dev nD) (t : Fin cfg0.N) : (dats m 0 c).after 7 t = outC (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates without a fault, every array
    of the pipeline ends at what the body's write-backs left, and every other unscoped buffer as the three stacking
    operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m (dats m) (A_eq m) r h c) (run_main m ρ)

/-- The same run with the stacked result named: what the three stacking operations leave in it, over the pipeline's
    arrays after the write-backs. -/
theorem run_result : θ_run defs (onTc (τ := τ) (main (F := F))) ⟨m, fun _ => 0, ρ⟩ (fun r => ∀ c : Dev nD,
      r.2.mem ((c.tc : Thread nD τ).loc main_v17) = Pipeline.afterTail₀ cfgs (dats m) 0 (V0 m) [hostOps1] c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).2 main_v17 (Pipeline.mem_restRefs_of main_v17 (by decide) (by decide)),
    args_kept m (dats m) (A_eq m) r h c⟩) (run_main m ρ)

end Cert.Kernel.Around

end
-- ==== Proof.IdealAround.lean ====
/-
  The frame of `KernelIdeal`'s @main, at any float instance: host operations, one pipelined region, host operations.

  @main first cuts each of the four weight matrices into its upper and lower 1024 rows, lays the four upper halves
  side by side (and the four lower halves, and the four bias vectors), narrows the two 1024 × 4096 matrices to bf16
  and reshapes the bias to one row; then the region runs the cell body at each of the 64 row blocks; then the two
  results are stacked. Nothing before the region writes an argument array and nothing after it writes an array of
  the pipeline, so the run is the library's frame run around the region: every array of the pipeline ends at what
  the body's stores left block by block, every other buffer at what the last host operations left.

  The body at a point reads the row block of x, of h and of c, the two whole weight matrices and the bias row, and
  stores the two output blocks whole; what it leaves in an output buffer is therefore the one stored payload
  (the cover of the buffer by the one store), a function of the six blocks read.
-/
import proofs.«118060_j19567871001103_1_alg».proof.Proof.Gen.KernelIdeal.Launch
import proofs.«118060_j19567871001103_1_alg».proof.Proof.Gen.KernelIdeal.Skeleton
import proofs.«118060_j19567871001103_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents after the fourteen host
    operations that build the two weight matrices and the bias row. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the three stacking operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The stacking operations touch only arrays of the pipeline and buffers that bypass the region, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline: each writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation after the region writes argument 3, which is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes argument 4, which is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the region writes argument 5, which is no array of the pipeline: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation after the region writes argument 6, which is no array of the pipeline: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation after the region writes argument 7, which is no array of the pipeline: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation after the region writes argument 8, which is no array of the pipeline: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host operation after the region writes argument 9, which is no array of the pipeline: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host operation after the region writes argument 10, which is no array of the pipeline: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (an unfetched
    window's index has not moved), for any proof data over the region-entry arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (an unfetched
    window's index has not moved), for any proof data over the region-entry arrays whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (an unfetched
    window's index has not moved), for any proof data over the region-entry arrays whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (an unfetched
    window's index has not moved), for any proof data over the region-entry arrays whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (an unfetched
    window's index has not moved), for any proof data over the region-entry arrays whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (an unfetched
    window's index has not moved), for any proof data over the region-entry arrays whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after the run -/

/-- After the frame run each argument array holds its launch contents: x, h and c are input windows' arrays, which
    the pipeline only reads; the weights and biases are touched by no window and written by no host operation. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F))
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats 0 c).arrAt_in 0 rfl _).trans ((hA c 0).trans (V_main_arg0 m c))),
   ((h c).1 1).trans (((dats 0 c).arrAt_in 1 rfl _).trans ((hA c 1).trans (V_main_arg1 m c))),
   ((h c).1 2).trans (((dats 0 c).arrAt_in 2 rfl _).trans ((hA c 2).trans (V_main_arg2 m c))),
   ((h c).2 main_arg3 (Pipeline.mem_restRefs_of main_arg3 (by decide) (by decide))).trans (W_main_arg3 m dats c),
   ((h c).2 main_arg4 (Pipeline.mem_restRefs_of main_arg4 (by decide) (by decide))).trans (W_main_arg4 m dats c),
   ((h c).2 main_arg5 (Pipeline.mem_restRefs_of main_arg5 (by decide) (by decide))).trans (W_main_arg5 m dats c),
   ((h c).2 main_arg6 (Pipeline.mem_restRefs_of main_arg6 (by decide) (by decide))).trans (W_main_arg6 m dats c),
   ((h c).2 main_arg7 (Pipeline.mem_restRefs_of main_arg7 (by decide) (by decide))).trans (W_main_arg7 m dats c),
   ((h c).2 main_arg8 (Pipeline.mem_restRefs_of main_arg8 (by decide) (by decide))).trans (W_main_arg8 m dats c),
   ((h c).2 main_arg9 (Pipeline.mem_restRefs_of main_arg9 (by decide) (by decide))).trans (W_main_arg9 m dats c),
   ((h c).2 main_arg10 (Pipeline.mem_restRefs_of main_arg10 (by decide) (by decide))).trans (W_main_arg10 m dats c)⟩

/-! ## What the body leaves in each output buffer -/

/-- The whole row block, the whole weight matrix and the whole bias row: the rectangles the body reads and writes. -/
abbrev rBlk : Rect S128x1024 := Rect.unit (s := S128x1024) ![0, 0] S128x1024.size inb_S128x1024_S128x1024_0_0
abbrev rMat : Rect S1024x4096 := Rect.unit (s := S1024x4096) ![0, 0] S1024x4096.size inb_S1024x4096_S1024x4096_0_0
abbrev rRow : Rect S1x4096 := Rect.unit (s := S1x4096) ![0, 0] S1x4096.size inb_S1x4096_S1x4096_0_0

/-- The new hidden state's buffer after the body: its one store, of the output gate times tanh of the new cell
    state, over the six blocks read. -/
def outH (x h c : Vec F S128x1024 .f32) (wx wh : Vec F S1024x4096 .bf16) (b : Vec F S1x4096 .f32) : Vec F S128x1024 .f32 :=
  View.canon [⟨rBlk, k0_pay3 (View.ld x rBlk) (View.ld h rBlk) (View.ld wx rMat) (View.ld wh rMat) (View.ld b rRow) (View.ld c rBlk)⟩]
/-- The new cell state's buffer after the body: its one store, forget gate times c plus input gate times candidate. -/
def outC (x h c : Vec F S128x1024 .f32) (wx wh : Vec F S1024x4096 .bf16) (b : Vec F S1x4096 .f32) : Vec F S128x1024 .f32 :=
  View.canon [⟨rBlk, k0_pay2 (View.ld x rBlk) (View.ld h rBlk) (View.ld wx rMat) (View.ld wh rMat) (View.ld b rRow) (View.ld c rBlk)⟩]

/-- One store of the whole block covers the buffer. -/
theorem cover_blk (p0 : Vec F S128x1024 .f32) (y : S128x1024.Idx) :
    ∃ pc ∈ ([⟨rBlk, p0⟩] : List (View.Piece (Elt F) S128x1024 .f32)), y ∈ pc.1.set :=
  View.cover_of_tiled [⟨rBlk, p0⟩] S128x1024.size (by rfl) y

/-! ## The body's triple -/

set_option maxHeartbeats 1000000 in
/-- The body on whole staging memrefs — the six inputs' at contents `x h c wx wh b`, the two outputs' at anything —
    runs to the continuation with the inputs' as they were and the outputs' at `outH` and `outC` of the inputs. -/
theorem sound_kernel (cd : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S128x1024 .f32) (harg7 : arg7.IsWhole) (arg8 : Memref sig .tc .vmem S128x1024 .f32) (harg8 : arg8.IsWhole)
    (x h c : Vec F S128x1024 .f32) (wx wh : Vec F S1024x4096 .bf16) (b : Vec F S1x4096 .f32) (K : PUnit → sProp 𝕄) :
    iprop(owns (cd : Thread nD τ) arg1 fullShare x ∗ owns (cd : Thread nD τ) arg2 fullShare h ∗ owns (cd : Thread nD τ) arg3 fullShare c
        ∗ owns (cd : Thread nD τ) arg4 fullShare wx ∗ owns (cd : Thread nD τ) arg5 fullShare wh ∗ owns (cd : Thread nD τ) arg6 fullShare b
        ∗ (∃ d, owns (cd : Thread nD τ) arg7 fullShare d) ∗ (∃ d, owns (cd : Thread nD τ) arg8 fullShare d)
        ∗ (iprop(owns (cd : Thread nD τ) arg1 fullShare x ∗ owns (cd : Thread nD τ) arg2 fullShare h ∗ owns (cd : Thread nD τ) arg3 fullShare c
            ∗ owns (cd : Thread nD τ) arg4 fullShare wx ∗ owns (cd : Thread nD τ) arg5 fullShare wh ∗ owns (cd : Thread nD τ) arg6 fullShare b
            ∗ owns (cd : Thread nD τ) arg7 fullShare (outH x h c wx wh b) ∗ owns (cd : Thread nD τ) arg8 fullShare (outC x h c wx wh b)) -∗ K ⟨⟩))
      ⊢ wp frame (wpE (defs₀ (F := F)) Variants.none cd none) E (cc0__lstm_cell_kernel i arg1 harg1 arg2 harg2 arg3 harg3 arg4 harg4 arg5 harg5 arg6 harg6 arg7 harg7 arg8 harg8) K := by
  simp only [cc0__lstm_cell_kernel_eq_skeleton]; unfold cc0__lstm_cell_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_blk _)
  iexists _; isplitr
  swap; · iexact H8
  ipureintro
  exact View.read_writes_eq_canon _ _ _ (cover_blk _)

/-! ## The pipeline's proof data -/

/-- The proof data of the pipeline on core `c`: the arrays as the region finds them; after the body at point `t`
    each input's buffer at its block and the two outputs' at `outH` and `outC` of the six input blocks; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outH (iblk m c 0 t) (iblk m c 1 t) (iblk m c 2 t) (iblk m c 3 t) (iblk m c 4 t) (iblk m c 5 t) := by dsimp only [dats]
theorem after7 (c : Dev nD) (t : Fin cfg0.N) : (dats m 0 c).after 7 t = outC (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates without a fault, every array
    of the pipeline ends at what the body's write-backs left, and every other unscoped buffer as the three stacking
    operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m (dats m) (A_eq m) r h c) (run_main m ρ)

/-- The same run with the stacked result named: what the three stacking operations leave in it, over the pipeline's
    arrays after the write-backs. -/
theorem run_result : θ_run defs (onTc (τ := τ) (main (F := F))) ⟨m, fun _ => 0, ρ⟩ (fun r => ∀ c : Dev nD,
      r.2.mem ((c.tc : Thread nD τ).loc main_v17) = Pipeline.afterTail₀ cfgs (dats m) 0 (V0 m) [hostOps1] c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).2 main_v17 (Pipeline.mem_restRefs_of main_v17 (by decide) (by decide)),
    args_kept m (dats m) (A_eq m) r h c⟩) (run_main m ρ)

end Cert.KernelIdeal.Around

end
-- ==== Proof.Cell.lean ====
/-
  The LSTM cell as one function of the argument arrays, on the extended reals, index by index.

  For a batch row `r` and a unit `j`, a gate's pre-activation is the row `[x r | h r]` of length 2048 against column
  `j` of the gate's 2048 × 1024 weight matrix, plus the gate's bias at `j`. It is written here as the sum over the
  first 1024 rows of the matrix against `x r` plus the sum over the last 1024 rows against `h r`; a sum over all
  2048 rows splits into these two (`sum_halves`), in any commutative monoid, so nothing about finiteness is used.
  The new cell state is `σ(f) · c + σ(i) · tanh(g)` and the new hidden state `σ(o) · tanh(c_new)`, with `σ` the
  logistic function `1 / (1 + e^(-t))` and the four gates f, i, g, o taken with their own matrices and biases.
-/
import Idealize.ShloMosaic.PureOps.Ideal
import Idealize.ShloMosaic.Lib.ValueIdx

noncomputable section

open scoped BigOperators

namespace Cert.Cell

open Idealize.ShloMosaic Idealize.ShloMosaic.ValueIdx

/-- A batch of 8192 rows of 1024 extended reals: x, h, c and the two results. -/
abbrev Rows := (⟨2, ![8192, 1024]⟩ : Shape).Idx → EReal
/-- A gate's weight matrix: rows 0 … 1023 meet x, rows 1024 … 2047 meet h. -/
abbrev Weight := (⟨2, ![2048, 1024]⟩ : Shape).Idx → EReal
/-- A gate's bias. -/
abbrev Bias := (⟨1, ![1024]⟩ : Shape).Idx → EReal

/-- Row `k` of the upper half of a weight matrix. -/
abbrev upper (k : Fin 1024) : Fin 2048 := ⟨k.val, by omega⟩
/-- Row `k` of the lower half: row `1024 + k` of the matrix. -/
abbrev lower (k : Fin 1024) : Fin 2048 := ⟨1024 + k.val, by omega⟩

/-- A sum over 2048 terms is the sum of its first 1024 and of its last 1024. -/
theorem sum_halves {M : Type} [AddCommMonoid M] (f : Fin 2048 → M) :
    ∑ k : Fin 2048, f k = ∑ k : Fin 1024, f (upper k) + ∑ k : Fin 1024, f (lower k) :=
  Fin.sum_univ_add (a := 1024) (b := 1024) f

/-- The pre-activation of one gate at row `r`, unit `j`. -/
def gate (x h : Rows) (W : Weight) (b : Bias) (r : Fin 8192) (j : Fin 1024) : EReal :=
  (∑ k : Fin 1024, x (ix2 r k) * W (ix2 (upper k) j) + ∑ k : Fin 1024, h (ix2 r k) * W (ix2 (lower k) j)) + b (ix1 j)

/-- The new cell state: forget gate times the old state plus input gate times the candidate. -/
def newC (x h c : Rows) (Wf : Weight) (bf : Bias) (Wi : Weight) (bi : Bias) (Wc : Weight) (bc : Bias) : Rows := fun i =>
  Ideal.logistic (gate x h Wf bf (i 0) (i 1)) * c i
    + Ideal.logistic (gate x h Wi bi (i 0) (i 1)) * Ideal.tanh (gate x h Wc bc (i 0) (i 1))

/-- The new hidden state: output gate times tanh of the new cell state. -/
def newH (x h c : Rows) (Wf : Weight) (bf : Bias) (Wi : Weight) (bi : Bias) (Wc : Weight) (bc : Bias)
    (Wo : Weight) (bo : Bias) : Rows := fun i =>
  Ideal.logistic (gate x h Wo bo (i 0) (i 1)) * Ideal.tanh (newC x h c Wf bf Wi bi Wc bc i)

end Cert.Cell

end
-- ==== Proof.Payload.lean ====
/-
  The cell body's arithmetic at one element of a block, on the extended reals.

  At a grid point the body holds a 128-row block of x, of h and of c, the two 1024 × 4096 weight matrices (the four
  gates' columns side by side, gate `g` in columns `g · 1024 … g · 1024 + 1023`) and the bias row. Its pre-activations
  are the block product of the x rows with the first matrix plus that of the h rows with the second plus the bias
  row repeated down the rows; a block product into a zero accumulator is, entry by entry, the sum over the 1024
  contracted positions of the products. The four gates are column slices of width 1024 of the pre-activations, so
  when each matrix column `g · 1024 + q` is column `q` of gate `g`'s own matrix (upper half against x, lower half
  against h) the two stored payloads are the cell's new state and new hidden state at that row and unit.
-/
import proofs.«118060_j19567871001103_1_alg».proof.Proof.Gen.KernelIdeal.Skeleton
import proofs.«118060_j19567871001103_1_alg».proof.Proof.Cell
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- Column `q` of gate `g` among the 4096 columns of the side-by-side matrices. -/
abbrev col (g : Fin 4) (q : Fin 1024) : Fin 4096 := ⟨g.val * 1024 + q.val, by have := g.isLt; have := q.isLt; omega⟩

/-! ## The block product at an entry -/

theorem lhs0 (i : S128x4096.Idx) (q : dot_S128x1024_S1024x4096_S128x4096_1_0_0_1_n_n.contr.Idx) : (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide), dif_pos (show (0 : Fin S128x1024.rank) ∈ dot_S128x1024_S1024x4096_S128x4096_1_0_0_1_n_n.lhsNonContracting by decide)]
  rfl
theorem lhs1 (i : S128x4096.Idx) (q : dot_S128x1024_S1024x4096_S128x4096_1_0_0_1_n_n.contr.Idx) : (dot_S128x1024_S1024x4096_S128x4096_1_0_0_1_n_n.lhsIdx i q 1).val = (q ⟨0, by decide⟩).val :=
  dot_S128x1024_S1024x4096_S128x4096_1_0_0_1_n_n.lhsIdx_val_of_single rfl i q
theorem rhs0 (i : S128x4096.Idx) (q : dot_S128x1024_S1024x4096_S128x4096_1_0_0_1_n_n.contr.Idx) : (dot_S128x1024_S1024x4096_S128x4096_1_0_0_1_n_n.rhsIdx i q 0).val = (q ⟨0, by decide⟩).val :=
  dot_S128x1024_S1024x4096_S128x4096_1_0_0_1_n_n.rhsIdx_val_of_single rfl i q
theorem rhs1 (i : S128x4096.Idx) (q : dot_S128x1024_S1024x4096_S128x4096_1_0_0_1_n_n.contr.Idx) : (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide), dif_pos (show (1 : Fin S1024x4096.rank) ∈ dot_S128x1024_S1024x4096_S128x4096_1_0_0_1_n_n.rhsNonContracting by decide)]
  rfl

/-- A 128 × 1024 block times a 1024 × 4096 matrix into the zero accumulator, at entry `(p, n)`: the sum over the
    1024 contracted positions of row `p` against column `n`. -/
theorem matmul_at (a : FVec Ideal S128x1024 .bf16) (w : FVec Ideal S1024x4096 .bf16) (p : Fin 128) (n : Fin 4096) :
    matmul (F := Ideal) dot_S128x1024_S1024x4096_S128x4096_1_0_0_1_n_n none a w (constant (F := Ideal) S128x4096 .f32 0x00000000#32) (ix2 p n)
      = ∑ k : Fin 1024, a (ix2 p k) * w (ix2 k n) := by
  simp only [matmul]
  rw [Ideal.matmul_constant_zero_apply, ← Equiv.sum_comp (ValueIdx.contrEquiv1 dot_S128x1024_S1024x4096_S128x4096_1_0_0_1_n_n 1024 rfl rfl).symm]
  refine Finset.sum_congr rfl fun k _ => ?_
  have hk := ValueIdx.contrEquiv1_symm_val dot_S128x1024_S1024x4096_S128x4096_1_0_0_1_n_n 1024 rfl rfl k
  have el : dot_S128x1024_S1024x4096_S128x4096_1_0_0_1_n_n.lhsIdx (ix2 p n) ((ValueIdx.contrEquiv1 dot_S128x1024_S1024x4096_S128x4096_1_0_0_1_n_n 1024 rfl rfl).symm k) = ix2 p k := funext fun a => Fin.ext (by
    match a with
    | ⟨0, _⟩ => exact lhs0 _ _
    | ⟨1, _⟩ => exact (lhs1 _ _).trans hk)
  have er : dot_S128x1024_S1024x4096_S128x4096_1_0_0_1_n_n.rhsIdx (ix2 p n) ((ValueIdx.contrEquiv1 dot_S128x1024_S1024x4096_S128x4096_1_0_0_1_n_n 1024 rfl rfl).symm k) = ix2 k n := funext fun a => Fin.ext (by
    match a with
    | ⟨0, _⟩ => exact (rhs0 _ _).trans hk
    | ⟨1, _⟩ => exact rhs1 _ _)
  rw [el, er]

/-! ## The pre-activations -/

/-- The pre-activations at row `p`, column `n`: row `p` of x against column `n` of the first matrix, plus row `p` of h
    against column `n` of the second, plus the bias at `n`. A change of float format is the identity here. -/
theorem pre_apply (x h : Vec Ideal S128x1024 .f32) (wx wh : Vec Ideal S1024x4096 .bf16) (b : Vec Ideal S1x4096 .f32)
    (p : Fin 128) (n : Fin 4096) :
    k0_pay1 (F := Ideal) x h wx wh b (ix2 p n)
      = (∑ k : Fin 1024, x (ix2 p k) * wx (ix2 k n) + ∑ k : Fin 1024, h (ix2 p k) * wh (ix2 k n)) + b (ix2 (0 : Fin 1) n) := by
  unfold k0_pay1
  rw [shapeCast_self, shapeCast_self, shapeCast_self]
  show (matmul (F := Ideal) dot_S128x1024_S1024x4096_S128x4096_1_0_0_1_n_n none _ wx _ (ix2 p n) + matmul (F := Ideal) dot_S128x1024_S1024x4096_S128x4096_1_0_0_1_n_n none _ wh _ (ix2 p n)) + broadcastTo S128x4096 b broadcasts_S1x4096_S128x4096 (ix2 p n) = _
  rw [matmul_at, matmul_at]
  rw [broadcastTo_apply b broadcasts_S1x4096_S128x4096 (ix2 p n) (ix2 (0 : Fin 1) n) (fun a => match a with
    | ⟨0, _⟩ => by show 0 = if (1 : Nat) = 1 then 0 else _; rw [if_pos rfl]
    | ⟨1, _⟩ => by show n.val = if (4096 : Nat) = 1 then 0 else n.val; rw [if_neg (by decide)])]
  rfl

/-- Gate `g`'s pre-activation at row `p`, unit `q` is the cell's, whenever the block's rows are rows `r` of the
    arrays and column `g · 1024 + q` of each matrix is column `q` of the gate's own matrix half. -/
theorem pre_gate (x h : Vec Ideal S128x1024 .f32) (wx wh : Vec Ideal S1024x4096 .bf16) (b : Vec Ideal S1x4096 .f32)
    (X H : Cell.Rows) (W : Cell.Weight) (B : Cell.Bias) (r : Fin 8192) (p : Fin 128) (n : Fin 4096) (q : Fin 1024)
    (hx : ∀ k : Fin 1024, x (ix2 p k) = X (ix2 r k)) (hh : ∀ k : Fin 1024, h (ix2 p k) = H (ix2 r k))
    (hwx : ∀ k : Fin 1024, wx (ix2 k n) = W (ix2 (Cell.upper k) q)) (hwh : ∀ k : Fin 1024, wh (ix2 k n) = W (ix2 (Cell.lower k) q))
    (hb : b (ix2 (0 : Fin 1) n) = B (ix1 q)) :
    k0_pay1 (F := Ideal) x h wx wh b (ix2 p n) = Cell.gate X H W B r q := by
  rw [pre_apply]
  unfold Cell.gate
  have e1 : ∑ k : Fin 1024, x (ix2 p k) * wx (ix2 k n) = ∑ k : Fin 1024, X (ix2 r k) * W (ix2 (Cell.upper k) q) :=
    Finset.sum_congr rfl (fun k _ => by rw [hx k, hwx k])
  have e2 : ∑ k : Fin 1024, h (ix2 p k) * wh (ix2 k n) = ∑ k : Fin 1024, H (ix2 r k) * W (ix2 (Cell.lower k) q) :=
    Finset.sum_congr rfl (fun k _ => by rw [hh k, hwh k])
  rw [e1, e2, hb]

/-! ## The two stored payloads -/

/-- Gate `g`'s slice of the pre-activations at `(p, q)` is their entry at column `g · 1024 + q`. -/
theorem slice0 (v : FVec Ideal S128x4096 .f32) (p : Fin 128) (q : Fin 1024) :
    extractStridedSlice S128x1024 ![0, 0] v slices_S128x4096_o0_0_S128x1024 (ix2 p q) = v (ix2 p (col 0 q)) :=
  extractStridedSlice_apply ![0, 0] v slices_S128x4096_o0_0_S128x1024 (ix2 p q) (ix2 p (col 0 q)) (fun a => match a with
    | ⟨0, _⟩ => by show p.val = 0 + p.val; omega
    | ⟨1, _⟩ => by show 0 * 1024 + q.val = 0 + q.val; omega)
theorem slice1 (v : FVec Ideal S128x4096 .f32) (p : Fin 128) (q : Fin 1024) :
    extractStridedSlice S128x1024 ![0, 1024] v slices_S128x4096_o0_1024_S128x1024 (ix2 p q) = v (ix2 p (col 1 q)) :=
  extractStridedSlice_apply ![0, 1024] v slices_S128x4096_o0_1024_S128x1024 (ix2 p q) (ix2 p (col 1 q)) (fun a => match a with
    | ⟨0, _⟩ => by show p.val = 0 + p.val; omega
    | ⟨1, _⟩ => by show 1 * 1024 + q.val = 1024 + q.val; omega)
theorem slice2 (v : FVec Ideal S128x4096 .f32) (p : Fin 128) (q : Fin 1024) :
    extractStridedSlice S128x1024 ![0, 2048] v slices_S128x4096_o0_2048_S128x1024 (ix2 p q) = v (ix2 p (col 2 q)) :=
  extractStridedSlice_apply ![0, 2048] v slices_S128x4096_o0_2048_S128x1024 (ix2 p q) (ix2 p (col 2 q)) (fun a => match a with
    | ⟨0, _⟩ => by show p.val = 0 + p.val; omega
    | ⟨1, _⟩ => by show 2 * 1024 + q.val = 2048 + q.val; omega)
theorem slice3 (v : FVec Ideal S128x4096 .f32) (p : Fin 128) (q : Fin 1024) :
    extractStridedSlice S128x1024 ![0, 3072] v slices_S128x4096_o0_3072_S128x1024 (ix2 p q) = v (ix2 p (col 3 q)) :=
  extractStridedSlice_apply ![0, 3072] v slices_S128x4096_o0_3072_S128x1024 (ix2 p q) (ix2 p (col 3 q)) (fun a => match a with
    | ⟨0, _⟩ => by show p.val = 0 + p.val; omega
    | ⟨1, _⟩ => by show 3 * 1024 + q.val = 3072 + q.val; omega)

/-- The logistic function and tanh act entry by entry. -/
theorem logistic_at (v : FVec Ideal S128x1024 .f32) (i : S128x1024.Idx) : logistic v i = Ideal.logistic (v i) := rfl
theorem tanh_at (v : FVec Ideal S128x1024 .f32) (i : S128x1024.Idx) : tanh v i = Ideal.tanh (v i) := rfl

/-- The payload stored as the new cell state, at `(p, q)`: σ(f) · c + σ(i) · tanh(g) over the gates' pre-activations. -/
theorem newC_apply (x h : Vec Ideal S128x1024 .f32) (wx wh : Vec Ideal S1024x4096 .bf16) (b : Vec Ideal S1x4096 .f32)
    (c : Vec Ideal S128x1024 .f32) (p : Fin 128) (q : Fin 1024) :
    k0_pay2 (F := Ideal) x h wx wh b c (ix2 p q)
      = Ideal.logistic (k0_pay1 (F := Ideal) x h wx wh b (ix2 p (col 0 q))) * c (ix2 p q)
        + Ideal.logistic (k0_pay1 (F := Ideal) x h wx wh b (ix2 p (col 1 q))) * Ideal.tanh (k0_pay1 (F := Ideal) x h wx wh b (ix2 p (col 2 q))) := by
  unfold k0_pay2
  rw [addf_apply, mulf_apply, mulf_apply, logistic_at, logistic_at, tanh_at, slice0, slice1, slice2]

/-- The payload stored as the new hidden state, at `(p, q)`: σ(o) · tanh of the new cell state. -/
theorem newH_apply (x h : Vec Ideal S128x1024 .f32) (wx wh : Vec Ideal S1024x4096 .bf16) (b : Vec Ideal S1x4096 .f32)
    (c : Vec Ideal S128x1024 .f32) (p : Fin 128) (q : Fin 1024) :
    k0_pay3 (F := Ideal) x h wx wh b c (ix2 p q)
      = Ideal.logistic (k0_pay1 (F := Ideal) x h wx wh b (ix2 p (col 3 q))) * Ideal.tanh (k0_pay2 (F := Ideal) x h wx wh b c (ix2 p q)) := by
  unfold k0_pay3
  rw [mulf_apply, logistic_at, tanh_at, slice3]

/-! ## The payloads as the cell -/

section Cell
variable (x h c : Vec Ideal S128x1024 .f32) (wx wh : Vec Ideal S1024x4096 .bf16) (b : Vec Ideal S1x4096 .f32)
  (X H C : Cell.Rows) (Ws : Fin 4 → Cell.Weight) (Bs : Fin 4 → Cell.Bias) (r : Fin 8192) (p : Fin 128) (q : Fin 1024)
  (hx : ∀ k : Fin 1024, x (ix2 p k) = X (ix2 r k)) (hh : ∀ k : Fin 1024, h (ix2 p k) = H (ix2 r k))
  (hc : c (ix2 p q) = C (ix2 r q))
  (hwx : ∀ (g : Fin 4) (k : Fin 1024), wx (ix2 k (col g q)) = Ws g (ix2 (Cell.upper k) q))
  (hwh : ∀ (g : Fin 4) (k : Fin 1024), wh (ix2 k (col g q)) = Ws g (ix2 (Cell.lower k) q))
  (hb : ∀ g : Fin 4, b (ix2 (0 : Fin 1) (col g q)) = Bs g (ix1 q))

include hx hh hc hwx hwh hb in
/-- The stored new cell state at `(p, q)` is the cell's at row `r`, unit `q`. -/
theorem newC_cell :
    k0_pay2 (F := Ideal) x h wx wh b c (ix2 p q) = Cell.newC X H C (Ws 0) (Bs 0) (Ws 1) (Bs 1) (Ws 2) (Bs 2) (ix2 r q) := by
  rw [newC_apply, pre_gate x h wx wh b X H (Ws 0) (Bs 0) r p (col 0 q) q hx hh (hwx 0) (hwh 0) (hb 0),
    pre_gate x h wx wh b X H (Ws 1) (Bs 1) r p (col 1 q) q hx hh (hwx 1) (hwh 1) (hb 1),
    pre_gate x h wx wh b X H (Ws 2) (Bs 2) r p (col 2 q) q hx hh (hwx 2) (hwh 2) (hb 2), hc]
  rfl

include hx hh hc hwx hwh hb in
/-- The stored new hidden state at `(p, q)` is the cell's at row `r`, unit `q`. -/
theorem newH_cell :
    k0_pay3 (F := Ideal) x h wx wh b c (ix2 p q)
      = Cell.newH X H C (Ws 0) (Bs 0) (Ws 1) (Bs 1) (Ws 2) (Bs 2) (Ws 3) (Bs 3) (ix2 r q) := by
  rw [newH_apply, newC_cell x h c wx wh b X H C Ws Bs r p q hx hh hc hwx hwh hb,
    pre_gate x h wx wh b X H (Ws 3) (Bs 3) r p (col 3 q) q hx hh (hwx 3) (hwh 3) (hb 3)]
  rfl

end Cell

end Cert.KernelIdeal.Payload

end
-- ==== Proof.LibConcat4.lean ====
/-
  A concatenation of four pieces of one shape, read at an index.
-/
import Idealize.ShloMosaic.Lib.Pipeline.Value

noncomputable section

namespace Cert.LibConcat4

open Idealize.ShloMosaic

/-- Four pieces `u 0, u 1, u 2, u 3` of one shape `s`, of extent `K` along axis `a`, laid end to end along that axis:
    at an index whose axis-`a` coordinate is `g · K + e` with `e` a coordinate of the piece, the concatenation reads
    piece `g` at the index with `e` on the axis and the same coordinates elsewhere. -/
theorem concat4_at {α : Type} {t s : Shape} (a : Fin t.rank) (u : Fin 4 → (s.Idx → α))
    (h : Shape.Concatenates ([(⟨s, u 0⟩ : (s : Shape) × (s.Idx → α)), ⟨s, u 1⟩, ⟨s, u 2⟩, ⟨s, u 3⟩].map (·.1)) t a)
    (hr : s.rank = t.rank) (K : Nat) (hK : s.size (a.cast hr.symm) = K)
    (j : t.Idx) (g : Fin 4) (i : s.Idx)
    (hi : ∀ b : Fin s.rank, b.cast hr ≠ a → (i b).val = (j (b.cast hr)).val)
    (ha : g.val * K + (i (a.cast hr.symm)).val = (j a).val) :
    concatenate t a [⟨s, u 0⟩, ⟨s, u 1⟩, ⟨s, u 2⟩, ⟨s, u 3⟩] h j = u g i := by
  subst hK
  match g with
  | ⟨0, _⟩ =>
    exact concatenate_apply_piece a _ h j 0 (by simp) s (u 0) rfl hr 0 (by simp) i hi (by simpa using ha)
  | ⟨1, _⟩ =>
    exact concatenate_apply_piece a _ h j 1 (by simp) s (u 1) rfl hr (1 * s.size (a.cast hr.symm))
      (by simp [dif_pos hr]) i hi ha
  | ⟨2, _⟩ =>
    exact concatenate_apply_piece a _ h j 2 (by simp) s (u 2) rfl hr (2 * s.size (a.cast hr.symm))
      (by simp [dif_pos hr]; omega) i hi ha
  | ⟨3, _⟩ =>
    exact concatenate_apply_piece a _ h j 3 (by simp) s (u 3) rfl hr (3 * s.size (a.cast hr.symm))
      (by simp [dif_pos hr]; omega) i hi ha

end Cert.LibConcat4

end
-- ==== Proof.KernelArrays.lean ====
/-
  The two result arrays of the idealized kernel after its run, as the cell of the argument arrays.

  Before the region the host lays the upper 1024 rows of the four weight matrices side by side (gate `g` in columns
  `g · 1024 … g · 1024 + 1023`), likewise the lower 1024 rows and the four biases; narrowing to bf16 and reshaping
  change nothing on the extended reals. So column `g · 1024 + q` of the first matrix is column `q` of the upper half
  of gate `g`'s matrix, of the second matrix that of the lower half, and entry `g · 1024 + q` of the bias row is
  gate `g`'s bias at `q`.
  Grid point `t` reads rows `128 t … 128 t + 127` of x, h and c and the whole of the two matrices and the bias row,
  and writes rows `128 t … 128 t + 127` of the two results. Hence what point `t` writes back is the block of rows
  `128 t …` of the cell's new hidden state and new cell state; the 64 blocks tile the 8192 rows (row `r` lies in
  block `r / 128`), so each result array is the cell's function of the arguments.
-/
import proofs.«118060_j19567871001103_1_alg».proof.Proof.IdealAround
import proofs.«118060_j19567871001103_1_alg».proof.Proof.Payload
import proofs.«118060_j19567871001103_1_alg».proof.Proof.LibConcat4
import Idealize.ShloMosaic.Lib.Pipeline.Value
import Idealize.ShloMosaic.Lib.ValueLayout
import Idealize.ShloMosaic.Lib.StableHlo.Run

set_option maxRecDepth 16384

noncomputable section

open scoped BigOperators

namespace Cert.KernelIdeal.Arrays

open Cert.KernelIdeal Cert.KernelIdeal.Gen Cert.KernelIdeal.Around Cert.KernelIdeal.Payload
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arguments as launched -/

abbrev argX (c : Dev nD) : Cell.Rows := m ((c : Thread nD τ).loc main_arg0)
abbrev argH (c : Dev nD) : Cell.Rows := m ((c : Thread nD τ).loc main_arg1)
abbrev argC (c : Dev nD) : Cell.Rows := m ((c : Thread nD τ).loc main_arg2)
/-- The four gates' weight matrices, in the order forget, input, candidate, output. -/
def argW (c : Dev nD) : Fin 4 → Cell.Weight :=
  ![m ((c : Thread nD τ).loc main_arg3), m ((c : Thread nD τ).loc main_arg5), m ((c : Thread nD τ).loc main_arg7), m ((c : Thread nD τ).loc main_arg9)]
/-- Their biases. -/
def argB (c : Dev nD) : Fin 4 → Cell.Bias :=
  ![m ((c : Thread nD τ).loc main_arg4), m ((c : Thread nD τ).loc main_arg6), m ((c : Thread nD τ).loc main_arg8), m ((c : Thread nD τ).loc main_arg10)]

/-- The new hidden state and the new cell state of the arguments. -/
abbrev cellH (c : Dev nD) : Cell.Rows :=
  Cell.newH (argX m c) (argH m c) (argC m c) (argW m c 0) (argB m c 0) (argW m c 1) (argB m c 1) (argW m c 2) (argB m c 2) (argW m c 3) (argB m c 3)
abbrev cellC (c : Dev nD) : Cell.Rows :=
  Cell.newC (argX m c) (argH m c) (argC m c) (argW m c 0) (argB m c 0) (argW m c 1) (argB m c 1) (argW m c 2) (argB m c 2)

/-! ## What the host operations before the region leave -/

/-- The upper 1024 rows of each gate's matrix, and the lower 1024 rows. -/
def upperHalf (c : Dev nD) : Fin 4 → (S1024x1024.Idx → EReal) :=
  ![extractStridedSlice S1024x1024 ![0, 0] (m ((c : Thread nD τ).loc main_arg3)) slices_S2048x1024_S1024x1024_0_0,
    extractStridedSlice S1024x1024 ![0, 0] (m ((c : Thread nD τ).loc main_arg5)) slices_S2048x1024_S1024x1024_0_0,
    extractStridedSlice S1024x1024 ![0, 0] (m ((c : Thread nD τ).loc main_arg7)) slices_S2048x1024_S1024x1024_0_0,
    extractStridedSlice S1024x1024 ![0, 0] (m ((c : Thread nD τ).loc main_arg9)) slices_S2048x1024_S1024x1024_0_0]
def lowerHalf (c : Dev nD) : Fin 4 → (S1024x1024.Idx → EReal) :=
  ![extractStridedSlice S1024x1024 ![1024, 0] (m ((c : Thread nD τ).loc main_arg3)) slices_S2048x1024_S1024x1024_1024_0,
    extractStridedSlice S1024x1024 ![1024, 0] (m ((c : Thread nD τ).loc main_arg5)) slices_S2048x1024_S1024x1024_1024_0,
    extractStridedSlice S1024x1024 ![1024, 0] (m ((c : Thread nD τ).loc main_arg7)) slices_S2048x1024_S1024x1024_1024_0,
    extractStridedSlice S1024x1024 ![1024, 0] (m ((c : Thread nD τ).loc main_arg9)) slices_S2048x1024_S1024x1024_1024_0]

/-- The first matrix the region stages: the four upper halves side by side, narrowed. -/
theorem V_wx (c : Dev nD) : (V m c main_v5 : S1024x4096.Idx → EReal)
    = truncf (F := Ideal) .bf16 (concatenate S1024x4096 1
        [⟨S1024x1024, upperHalf m c 0⟩, ⟨S1024x1024, upperHalf m c 1⟩, ⟨S1024x1024, upperHalf m c 2⟩, ⟨S1024x1024, upperHalf m c 3⟩]
        concatenates_S1024x1024_S1024x1024_S1024x1024_S1024x1024_S1024x4096_d1) bitsLt_bf16_f32 := by
  show StableHlo.after hostOps0 (fun b => m (c, b)) (Proc.devRef .tc main_v5) = _
  after_results
  rfl

/-- The second: the four lower halves side by side, narrowed. -/
theorem V_wh (c : Dev nD) : (V m c main_v11 : S1024x4096.Idx → EReal)
    = truncf (F := Ideal) .bf16 (concatenate S1024x4096 1
        [⟨S1024x1024, lowerHalf m c 0⟩, ⟨S1024x1024, lowerHalf m c 1⟩, ⟨S1024x1024, lowerHalf m c 2⟩, ⟨S1024x1024, lowerHalf m c 3⟩]
        concatenates_S1024x1024_S1024x1024_S1024x1024_S1024x1024_S1024x4096_d1) bitsLt_bf16_f32 := by
  show StableHlo.after hostOps0 (fun b => m (c, b)) (Proc.devRef .tc main_v11) = _
  after_results
  rfl

/-- The bias row: the four biases end to end, as one row. -/
theorem V_b (c : Dev nD) : (V m c main_v13 : S1x4096.Idx → EReal)
    = shapeCast S1x4096 (concatenate S4096 0
        [⟨S1024, argB m c 0⟩, ⟨S1024, argB m c 1⟩, ⟨S1024, argB m c 2⟩, ⟨S1024, argB m c 3⟩]
        concatenates_S1024_S1024_S1024_S1024_S4096_d0) shapeCasts_S4096_S1x4096 := by
  show StableHlo.after hostOps0 (fun b => m (c, b)) (Proc.devRef .tc main_v13) = _
  after_results
  rfl

/-- Row `k` of an upper half is row `k` of the matrix; of a lower half, row `1024 + k`. -/
theorem upperHalf_at (c : Dev nD) (g : Fin 4) (k q : Fin 1024) :
    upperHalf m c g (ix2 k q) = argW m c g (ix2 (Cell.upper k) q) := by
  match g with
  | ⟨0, _⟩ | ⟨1, _⟩ | ⟨2, _⟩ | ⟨3, _⟩ =>
    exact extractStridedSlice_apply ![0, 0] _ slices_S2048x1024_S1024x1024_0_0 (ix2 k q) (ix2 (Cell.upper k) q) (fun a => match a with
      | ⟨0, _⟩ => by show k.val = 0 + k.val; omega
      | ⟨1, _⟩ => by show q.val = 0 + q.val; omega)
theorem lowerHalf_at (c : Dev nD) (g : Fin 4) (k q : Fin 1024) :
    lowerHalf m c g (ix2 k q) = argW m c g (ix2 (Cell.lower k) q) := by
  match g with
  | ⟨0, _⟩ | ⟨1, _⟩ | ⟨2, _⟩ | ⟨3, _⟩ =>
    exact extractStridedSlice_apply ![1024, 0] _ slices_S2048x1024_S1024x1024_1024_0 (ix2 k q) (ix2 (Cell.lower k) q) (fun a => match a with
      | ⟨0, _⟩ => by show 1024 + k.val = 1024 + k.val; rfl
      | ⟨1, _⟩ => by show q.val = 0 + q.val; omega)

/-- Column `g · 1024 + q` of the first staged matrix is column `q` of the upper half of gate `g`'s matrix. -/
theorem wx_at (c : Dev nD) (g : Fin 4) (k q : Fin 1024) :
    (V m c main_v5 : S1024x4096.Idx → EReal) (ix2 k (col g q)) = argW m c g (ix2 (Cell.upper k) q) := by
  rw [V_wx]
  show concatenate S1024x4096 1
    [⟨S1024x1024, upperHalf m c 0⟩, ⟨S1024x1024, upperHalf m c 1⟩, ⟨S1024x1024, upperHalf m c 2⟩, ⟨S1024x1024, upperHalf m c 3⟩]
    concatenates_S1024x1024_S1024x1024_S1024x1024_S1024x1024_S1024x4096_d1 (ix2 k (col g q)) = _
  refine (LibConcat4.concat4_at (t := S1024x4096) (s := S1024x1024) (1 : Fin 2) (upperHalf m c) concatenates_S1024x1024_S1024x1024_S1024x1024_S1024x1024_S1024x4096_d1
    rfl 1024 rfl (ix2 k (col g q)) g (ix2 k q) (fun b hb => match b with
      | ⟨0, _⟩ => rfl
      | ⟨1, _⟩ => absurd rfl hb) rfl).trans ?_
  exact upperHalf_at m c g k q

/-- Column `g · 1024 + q` of the second staged matrix is column `q` of the lower half of gate `g`'s matrix. -/
theorem wh_at (c : Dev nD) (g : Fin 4) (k q : Fin 1024) :
    (V m c main_v11 : S1024x4096.Idx → EReal) (ix2 k (col g q)) = argW m c g (ix2 (Cell.lower k) q) := by
  rw [V_wh]
  show concatenate S1024x4096 1
    [⟨S1024x1024, lowerHalf m c 0⟩, ⟨S1024x1024, lowerHalf m c 1⟩, ⟨S1024x1024, lowerHalf m c 2⟩, ⟨S1024x1024, lowerHalf m c 3⟩]
    concatenates_S1024x1024_S1024x1024_S1024x1024_S1024x1024_S1024x4096_d1 (ix2 k (col g q)) = _
  refine (LibConcat4.concat4_at (t := S1024x4096) (s := S1024x1024) (1 : Fin 2) (lowerHalf m c) concatenates_S1024x1024_S1024x1024_S1024x1024_S1024x1024_S1024x4096_d1
    rfl 1024 rfl (ix2 k (col g q)) g (ix2 k q) (fun b hb => match b with
      | ⟨0, _⟩ => rfl
      | ⟨1, _⟩ => absurd rfl hb) rfl).trans ?_
  exact lowerHalf_at m c g k q

/-- Entry `g · 1024 + q` of the bias row is gate `g`'s bias at `q`. -/
theorem b_at (c : Dev nD) (g : Fin 4) (q : Fin 1024) :
    (V m c main_v13 : S1x4096.Idx → EReal) (ix2 (0 : Fin 1) (col g q)) = argB m c g (ix1 q) := by
  rw [V_b]
  refine (shapeCast_a_1a_apply _ shapeCasts_S4096_S1x4096 (0 : Fin 1) (col g q)).trans ?_
  exact LibConcat4.concat4_at (t := S4096) (s := S1024) (0 : Fin 1) (argB m c) concatenates_S1024_S1024_S1024_S1024_S4096_d0
    rfl 1024 rfl (ix1 (col g q)) g (ix1 q) (fun b hb => match b with
      | ⟨0, _⟩ => absurd rfl hb) rfl

/-! ## The blocks a grid point reads -/

/-- The index maps, decided over the 64 points: the row-block windows (x, h, c and the two results) are at block
    `(t, 0)`, the two matrices and the bias row at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of block `t` is row `128 t + p` of the array. -/
abbrev row (t : Fin cfg0.N) (p : Fin 128) : Fin 8192 :=
  ⟨t.val * 128 + p.val, by have h : t.val < 64 := t.isLt.trans_eq N_0; have := p.isLt; omega⟩

/-- Block `t` of x, of h and of c: rows `128 t …` of the argument. -/
theorem blk_x (c : Dev nD) (t : Fin cfg0.N) (p : Fin 128) (k : Fin 1024) :
    iblk m c 0 t (ix2 p k) = argX m c (ix2 (row t p) k) := by
  show V m c main_arg0 (((cfg0.win 0).blk t).view.emb (ix2 p k)) = _
  rw [V_main_arg0]
  refine congrArg (m ((c : Thread nD τ).loc main_arg0)) (funext fun a => Fin.ext ?_)
  obtain ⟨e0, e1, -⟩ := idx_facts t
  match a with
  | ⟨0, _⟩ => show win0_0.index t (0 : Fin 2) * 128 + 1 * p.val = t.val * 128 + p.val; rw [e0]; omega
  | ⟨1, _⟩ => show win0_0.index t (1 : Fin 2) * 1024 + 1 * k.val = k.val; rw [e1]; omega
theorem blk_h (c : Dev nD) (t : Fin cfg0.N) (p : Fin 128) (k : Fin 1024) :
    iblk m c 1 t (ix2 p k) = argH m c (ix2 (row t p) k) := by
  show V m c main_arg1 (((cfg0.win 1).blk t).view.emb (ix2 p k)) = _
  rw [V_main_arg1]
  refine congrArg (m ((c : Thread nD τ).loc main_arg1)) (funext fun a => Fin.ext ?_)
  obtain ⟨-, -, e0, e1, -⟩ := idx_facts t
  match a with
  | ⟨0, _⟩ => show win0_1.index t (0 : Fin 2) * 128 + 1 * p.val = t.val * 128 + p.val; rw [e0]; omega
  | ⟨1, _⟩ => show win0_1.index t (1 : Fin 2) * 1024 + 1 * k.val = k.val; rw [e1]; omega
theorem blk_c (c : Dev nD) (t : Fin cfg0.N) (p : Fin 128) (k : Fin 1024) :
    iblk m c 2 t (ix2 p k) = argC m c (ix2 (row t p) k) := by
  show V m c main_arg2 (((cfg0.win 2).blk t).view.emb (ix2 p k)) = _
  rw [V_main_arg2]
  refine congrArg (m ((c : Thread nD τ).loc main_arg2)) (funext fun a => Fin.ext ?_)
  obtain ⟨-, -, -, -, e0, e1, -⟩ := idx_facts t
  match a with
  | ⟨0, _⟩ => show win0_2.index t (0 : Fin 2) * 128 + 1 * p.val = t.val * 128 + p.val; rw [e0]; omega
  | ⟨1, _⟩ => show win0_2.index t (1 : Fin 2) * 1024 + 1 * k.val = k.val; rw [e1]; omega

/-- The one block of each matrix and of the bias row is the whole array. -/
theorem blk_wx (c : Dev nD) (t : Fin cfg0.N) (k : Fin 1024) (n : Fin 4096) :
    iblk m c 3 t (ix2 k n) = (V m c main_v5 : S1024x4096.Idx → EReal) (ix2 k n) := by
  show V m c main_v5 (((cfg0.win 3).blk t).view.emb (ix2 k n)) = _
  refine congrArg (V m c main_v5 : S1024x4096.Idx → EReal) (funext fun a => Fin.ext ?_)
  obtain ⟨-, -, -, -, -, -, e0, e1, -⟩ := idx_facts t
  match a with
  | ⟨0, _⟩ => show win0_3.index t (0 : Fin 2) * 1024 + 1 * k.val = k.val; rw [e0]; omega
  | ⟨1, _⟩ => show win0_3.index t (1 : Fin 2) * 4096 + 1 * n.val = n.val; rw [e1]; omega
theorem blk_wh (c : Dev nD) (t : Fin cfg0.N) (k : Fin 1024) (n : Fin 4096) :
    iblk m c 4 t (ix2 k n) = (V m c main_v11 : S1024x4096.Idx → EReal) (ix2 k n) := by
  show V m c main_v11 (((cfg0.win 4).blk t).view.emb (ix2 k n)) = _
  refine congrArg (V m c main_v11 : S1024x4096.Idx → EReal) (funext fun a => Fin.ext ?_)
  obtain ⟨-, -, -, -, -, -, -, -, e0, e1, -⟩ := idx_facts t
  match a with
  | ⟨0, _⟩ => show win0_4.index t (0 : Fin 2) * 1024 + 1 * k.val = k.val; rw [e0]; omega
  | ⟨1, _⟩ => show win0_4.index t (1 : Fin 2) * 4096 + 1 * n.val = n.val; rw [e1]; omega
theorem blk_b (c : Dev nD) (t : Fin cfg0.N) (n : Fin 4096) :
    iblk m c 5 t (ix2 (0 : Fin 1) n) = (V m c main_v13 : S1x4096.Idx → EReal) (ix2 (0 : Fin 1) n) := by
  show V m c main_v13 (((cfg0.win 5).blk t).view.emb (ix2 (0 : Fin 1) n)) = _
  refine congrArg (V m c main_v13 : S1x4096.Idx → EReal) (funext fun a => Fin.ext ?_)
  obtain ⟨-, -, -, -, -, -, -, -, -, -, e0, e1, -⟩ := idx_facts t
  match a with
  | ⟨0, _⟩ => show win0_5.index t (0 : Fin 2) * 1 + 1 * 0 = 0; rw [e0]
  | ⟨1, _⟩ => show win0_5.index t (1 : Fin 2) * 4096 + 1 * n.val = n.val; rw [e1]; omega

/-! ## What a grid point writes back -/

theorem hz : (![0, 0] : Fin 2 → Nat) = fun _ => 0 := funext fun a => by fin_cases a <;> rfl

/-- The two stored payloads of point `t` at `(p, q)` are the cell's new states at row `128 t + p`, unit `q`. -/
theorem storedH (c : Dev nD) (t : Fin cfg0.N) (p : Fin 128) (q : Fin 1024) :
    k0_pay3 (F := Ideal) (iblk m c 0 t) (iblk m c 1 t) (iblk m c 3 t) (iblk m c 4 t) (iblk m c 5 t) (iblk m c 2 t) (ix2 p q)
      = cellH m c (ix2 (row t p) q) :=
  newH_cell (iblk m c 0 t) (iblk m c 1 t) (iblk m c 2 t) (iblk m c 3 t) (iblk m c 4 t) (iblk m c 5 t)
    (argX m c) (argH m c) (argC m c) (argW m c) (argB m c) (row t p) p q
    (fun k => blk_x m c t p k) (fun k => blk_h m c t p k) (blk_c m c t p q)
    (fun g k => (blk_wx m c t k (col g q)).trans (wx_at m c g k q))
    (fun g k => (blk_wh m c t k (col g q)).trans (wh_at m c g k q))
    (fun g => (blk_b m c t (col g q)).trans (b_at m c g q))
theorem storedC (c : Dev nD) (t : Fin cfg0.N) (p : Fin 128) (q : Fin 1024) :
    k0_pay2 (F := Ideal) (iblk m c 0 t) (iblk m c 1 t) (iblk m c 3 t) (iblk m c 4 t) (iblk m c 5 t) (iblk m c 2 t) (ix2 p q)
      = cellC m c (ix2 (row t p) q) :=
  newC_cell (iblk m c 0 t) (iblk m c 1 t) (iblk m c 2 t) (iblk m c 3 t) (iblk m c 4 t) (iblk m c 5 t)
    (argX m c) (argH m c) (argC m c) (argW m c) (argB m c) (row t p) p q
    (fun k => blk_x m c t p k) (fun k => blk_h m c t p k) (blk_c m c t p q)
    (fun g k => (blk_wx m c t k (col g q)).trans (wx_at m c g k q))
    (fun g k => (blk_wh m c t k (col g q)).trans (wh_at m c g k q))
    (fun g => (blk_b m c t (col g q)).trans (b_at m c g q))

/-- What point `t` writes back to the hidden-state result is block `t` of the cell's new hidden state, -/
theorem flushedH (c : Dev nD) (t : Fin cfg0.N) :
    (dats m 0 c).flushed 6 t = ((cfg0.win 6).blk t).view.read (Elt Ideal) (cellH m c) := by
  show (cfg0.win 6).cut (grid0.coords t) ((dats m 0 c).after 6 t) = _
  rw [after6]
  unfold outH
  rw [View.canon_unit_zero hz]
  simp only [View.ld_unit_zero (S := S128x1024) hz, View.ld_unit_zero (S := S1024x4096) hz, View.ld_unit_zero (S := S1x4096) hz]
  funext j
  obtain ⟨p, q, rfl⟩ : ∃ (p : Fin 128) (q : Fin 1024), j = ix2 p q := ⟨j 0, j 1, eq_ix2 j⟩
  refine (storedH m c t p q).trans ?_
  show cellH m c (ix2 (row t p) q) = cellH m c (((cfg0.win 6).blk t).view.emb (ix2 p q))
  refine congrArg (cellH m c) (funext fun a => Fin.ext ?_)
  obtain ⟨-, -, -, -, -, -, -, -, -, -, -, -, e0, e1, -⟩ := idx_facts t
  match a with
  | ⟨0, _⟩ => show t.val * 128 + p.val = win0_6.index t (0 : Fin 2) * 128 + 1 * p.val; rw [e0]; omega
  | ⟨1, _⟩ => show q.val = win0_6.index t (1 : Fin 2) * 1024 + 1 * q.val; rw [e1]; omega

/-- and to the cell-state result, block `t` of the cell's new cell state. -/
theorem flushedC (c : Dev nD) (t : Fin cfg0.N) :
    (dats m 0 c).flushed 7 t = ((cfg0.win 7).blk t).view.read (Elt Ideal) (cellC m c) := by
  show (cfg0.win 7).cut (grid0.coords t) ((dats m 0 c).after 7 t) = _
  rw [after7]
  unfold outC
  rw [View.canon_unit_zero hz]
  simp only [View.ld_unit_zero (S := S128x1024) hz, View.ld_unit_zero (S := S1024x4096) hz, View.ld_unit_zero (S := S1x4096) hz]
  funext j
  obtain ⟨p, q, rfl⟩ : ∃ (p : Fin 128) (q : Fin 1024), j = ix2 p q := ⟨j 0, j 1, eq_ix2 j⟩
  refine (storedC m c t p q).trans ?_
  show cellC m c (ix2 (row t p) q) = cellC m c (((cfg0.win 7).blk t).view.emb (ix2 p q))
  refine congrArg (cellC m c) (funext fun a => Fin.ext ?_)
  obtain ⟨-, -, -, -, -, -, -, -, -, -, -, -, -, -, e0, e1⟩ := idx_facts t
  match a with
  | ⟨0, _⟩ => show t.val * 128 + p.val = win0_7.index t (0 : Fin 2) * 128 + 1 * p.val; rw [e0]; omega
  | ⟨1, _⟩ => show q.val = win0_7.index t (1 : Fin 2) * 1024 + 1 * q.val; rw [e1]; omega

/-! ## The blocks tile the rows -/

theorem mem_blkH (t : Fin cfg0.N) (i : S8192x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v14_0).slice (win0_6.rect t)).set ↔ _
  rw [View.set_slice_whole, Rect.mem_set_unit]
  exact Iff.rfl
theorem mem_blkC (t : Fin cfg0.N) (i : S8192x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v14_1).slice (win0_7.rect t)).set ↔ _
  rw [View.set_slice_whole, Rect.mem_set_unit]
  exact Iff.rfl

/-- Row `r` lies in block `r / 128`. -/
abbrev pointOf (i : S8192x1024.Idx) : Fin cfg0.N :=
  ⟨(i 0).val / 128, by have h : (i 0).val < 8192 := (i 0).isLt; exact (show (i 0).val / 128 < 64 by omega).trans_eq N_0.symm⟩

theorem coverH (i : S8192x1024.Idx) : ∃ t : Fin cfg0.N, (cfg0.win 6).flush t = true ∧ i ∈ ((cfg0.win 6).blk t).view.set := by
  refine ⟨pointOf i, flush0_6 _, ?_⟩
  rw [mem_blkH]
  obtain ⟨-, -, -, -, -, -, -, -, -, -, -, -, e0, e1, -⟩ := idx_facts (pointOf i)
  have h0 : (i 0).val < 8192 := (i 0).isLt
  have h1 : (i 1).val < 1024 := (i 1).isLt
  intro a
  match a with
  | ⟨0, _⟩ => show win0_6.index (pointOf i) (0 : Fin 2) * 128 ≤ (i 0).val ∧ (i 0).val < win0_6.index (pointOf i) (0 : Fin 2) * 128 + 128; rw [e0]; show (i 0).val / 128 * 128 ≤ (i 0).val ∧ (i 0).val < (i 0).val / 128 * 128 + 128; omega
  | ⟨1, _⟩ => show win0_6.index (pointOf i) (1 : Fin 2) * 1024 ≤ (i 1).val ∧ (i 1).val < win0_6.index (pointOf i) (1 : Fin 2) * 1024 + 1024; rw [e1]; omega
theorem coverC (i : S8192x1024.Idx) : ∃ t : Fin cfg0.N, (cfg0.win 7).flush t = true ∧ i ∈ ((cfg0.win 7).blk t).view.set := by
  refine ⟨pointOf i, flush0_7 _, ?_⟩
  rw [mem_blkC]
  obtain ⟨-, -, -, -, -, -, -, -, -, -, -, -, -, -, e0, e1⟩ := idx_facts (pointOf i)
  have h0 : (i 0).val < 8192 := (i 0).isLt
  have h1 : (i 1).val < 1024 := (i 1).isLt
  intro a
  match a with
  | ⟨0, _⟩ => show win0_7.index (pointOf i) (0 : Fin 2) * 128 ≤ (i 0).val ∧ (i 0).val < win0_7.index (pointOf i) (0 : Fin 2) * 128 + 128; rw [e0]; show (i 0).val / 128 * 128 ≤ (i 0).val ∧ (i 0).val < (i 0).val / 128 * 128 + 128; omega
  | ⟨1, _⟩ => show win0_7.index (pointOf i) (1 : Fin 2) * 1024 ≤ (i 1).val ∧ (i 1).val < win0_7.index (pointOf i) (1 : Fin 2) * 1024 + 1024; rw [e1]; omega

/-! ## The result arrays -/

/-- After the write-backs the two result arrays hold the cell's new hidden state and new cell state. -/
theorem finalH (c : Dev nD) : (dats m 0 c).arrAt 6 cfg0.N = cellH m c :=
  (dats m 0 c).arrAt_eq_of_cover 6 (cellH m c) (fun t _ => flushedH m c t) (coverH)
theorem finalC (c : Dev nD) : (dats m 0 c).arrAt 7 cfg0.N = cellC m c :=
  (dats m 0 c).arrAt_eq_of_cover 7 (cellC m c) (fun t _ => flushedC m c t) (coverC)

/-- The two states, each given a leading axis of extent one, stacked along it. -/
def stacked (H C : S8192x1024.Idx → EReal) : S2x8192x1024.Idx → EReal :=
  concatenate S2x8192x1024 0
    [⟨S1x8192x1024, broadcastInDim S1x8192x1024 ![1, 2] bcast_S8192x1024_S1x8192x1024_1_2 H⟩,
     ⟨S1x8192x1024, broadcastInDim S1x8192x1024 ![1, 2] bcast_S8192x1024_S1x8192x1024_1_2 C⟩]
    concatenates_S1x8192x1024_S1x8192x1024_S2x8192x1024_d0

/-- What the three stacking operations leave in the result: the two result arrays stacked. -/
theorem tail_eq (c : Dev nD) :
    (Pipeline.afterTail₀ cfgs (dats m) 0 (V0 m) [hostOps1] c main_v17 : S2x8192x1024.Idx → EReal)
      = stacked (cellH m c) (cellC m c) := by
  unfold Pipeline.afterTail₀
  show StableHlo.after hostOps1 _ (Proc.devRef .tc main_v17) = _
  after_results
  unfold stacked
  rw [show Pipeline.withArrays spec0 c (V0 m c) (fun w => (dats m 0 c).arrAt w cfg0.N) (Proc.devRef .tc main_v14_0) = cellH m c from
      (Pipeline.withArrays_arr spec0 launch0.win.arr_inj c _ _ 6).trans (finalH m c),
    show Pipeline.withArrays spec0 c (V0 m c) (fun w => (dats m 0 c).arrAt w cfg0.N) (Proc.devRef .tc main_v14_1) = cellC m c from
      (Pipeline.withArrays_arr spec0 launch0.win.arr_inj c _ _ 7).trans (finalC m c)]

/-- The idealized kernel's run with its result named: the cell's two new states stacked, the arguments unchanged. -/
theorem run : θ_run defs (onTc (τ := τ) (main (F := Ideal))) ⟨m, fun _ => 0, ρ⟩ (fun r => ∀ c : Dev nD,
      r.2.mem ((c.tc : Thread nD τ).loc main_v17) = stacked (cellH m c) (cellC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (tail_eq m c), (h c).2⟩) (run_result m ρ)

end Cert.KernelIdeal.Arrays

end
-- ==== Proof.RefCell.lean ====
/-
  The reference's two results as the LSTM cell, index by index, on the extended reals.

  The reference joins `x` and `h` into rows of length 2048, the four gates' weight matrices into one 2048 × 4096
  matrix and their biases into one vector of length 4096, multiplies, adds the bias and cuts the product into four
  bands of 1024 columns. Column `p + j` of the joined matrix (`p` = 0, 1024, 2048, 3072) is column `j` of the matrix
  of the gate that owns the band, and likewise for the bias; entry `k` of a joined row is `x` at `k` below 1024 and
  `h` at `k - 1024` from 1024 on. So an entry of a band is the sum over all 2048 rows, which splits into the sum over
  the first 1024 rows against `x` and the last 1024 against `h`: the cell's gate. The rest is elementwise: one over
  one plus the exponential of the negation is the logistic function, the constant is the extended real one.
-/
import proofs.«118060_j19567871001103_1_alg».proof.Proof.Gen.ReferenceIdeal.Read
import proofs.«118060_j19567871001103_1_alg».proof.Proof.Cell
import Idealize.ShloMosaic.Lib.Pipeline.Value
import Idealize.ShloMosaic.Lib.ValueIdx
import Idealize.ShloMosaic.PureOps.Ideal.Laws
import Idealize.ShloMosaic.Lib.IdealHost

noncomputable section

open scoped BigOperators

namespace Cert.ReferenceIdeal.RefCell

open Cert.ReferenceIdeal Cert.ReferenceIdeal.Gen Idealize.ShloMosaic Idealize.ShloMosaic.TcCoe Idealize.SL.Sem Idealize.ShloMosaic.StableHlo Idealize.ShloMosaic.ValueIdx
open Cert.ReferenceIdeal.Read Cert.Cell

/-! ## The three joins at an index -/

/-- Column `j` of the first band of 1024 columns. -/
abbrev col0 (j : Fin 1024) : Fin 4096 := ⟨0 + j.val, by omega⟩
/-- Column `j` of the second band. -/
abbrev col1 (j : Fin 1024) : Fin 4096 := ⟨1024 + j.val, by omega⟩
/-- Column `j` of the third band. -/
abbrev col2 (j : Fin 1024) : Fin 4096 := ⟨2048 + j.val, by omega⟩
/-- Column `j` of the fourth band. -/
abbrev col3 (j : Fin 1024) : Fin 4096 := ⟨3072 + j.val, by omega⟩

/-- Entry `k` below 1024 of the joined row `[x r | h r]` is `x r` at `k`. -/
theorem rows_upper (x0 x1 : (⟨S8192x1024, .f32⟩ : BufTy).Contents (Elt Ideal)) (r : Fin 8192) (k : Fin 1024) :
    val_main_v0 (F := Ideal) x0 x1 (ix2 r (upper k)) = x0 (ix2 r k) := by
  unfold val_main_v0
  exact concatenate_pair_apply_left (t := S8192x2048) (s₁ := S8192x1024) (s₂ := S8192x1024) 1 x0 x1 _ _ rfl (ix2 r k)
    (fun b => by
      match b with
      | ⟨0, _⟩ => rfl
      | ⟨1, _⟩ => rfl)

/-- Entry `1024 + k` of the joined row is `h r` at `k`. -/
theorem rows_lower (x0 x1 : (⟨S8192x1024, .f32⟩ : BufTy).Contents (Elt Ideal)) (r : Fin 8192) (k : Fin 1024) :
    val_main_v0 (F := Ideal) x0 x1 (ix2 r (lower k)) = x1 (ix2 r k) := by
  unfold val_main_v0
  exact concatenate_pair_apply_right (t := S8192x2048) (s₁ := S8192x1024) (s₂ := S8192x1024) 1 x0 x1 _ _ rfl rfl (ix2 r k)
    (fun b hb => by
      match b with
      | ⟨0, _⟩ => rfl
      | ⟨1, _⟩ => exact absurd rfl hb)
    (by show k.val + 1024 = 1024 + k.val; omega)

/-- Column `0 + j` of the joined weight matrix is column `j` of the forget gate's matrix. -/
theorem weights_col0 (x3 x5 x7 x9 : (⟨S2048x1024, .f32⟩ : BufTy).Contents (Elt Ideal)) (k : Fin 2048) (j : Fin 1024) :
    val_main_v1 (F := Ideal) x3 x5 x7 x9 (ix2 k (col0 j)) = x3 (ix2 k j) := by
  unfold val_main_v1
  exact concatenate_apply_piece (t := S2048x4096) 1 _ _ _ 0 (by show (0 : Nat) < 4; omega) S2048x1024 x3 rfl rfl 0 rfl (ix2 k j)
    (fun b hb => by
      match b with
      | ⟨0, _⟩ => rfl
      | ⟨1, _⟩ => exact absurd rfl hb)
    rfl

/-- Column `1024 + j` of the joined weight matrix is column `j` of the input gate's matrix. -/
theorem weights_col1 (x3 x5 x7 x9 : (⟨S2048x1024, .f32⟩ : BufTy).Contents (Elt Ideal)) (k : Fin 2048) (j : Fin 1024) :
    val_main_v1 (F := Ideal) x3 x5 x7 x9 (ix2 k (col1 j)) = x5 (ix2 k j) := by
  unfold val_main_v1
  exact concatenate_apply_piece (t := S2048x4096) 1 _ _ _ 1 (by show (1 : Nat) < 4; omega) S2048x1024 x5 rfl rfl 1024 rfl (ix2 k j)
    (fun b hb => by
      match b with
      | ⟨0, _⟩ => rfl
      | ⟨1, _⟩ => exact absurd rfl hb)
    rfl

/-- Column `2048 + j` of the joined weight matrix is column `j` of the candidate gate's matrix. -/
theorem weights_col2 (x3 x5 x7 x9 : (⟨S2048x1024, .f32⟩ : BufTy).Contents (Elt Ideal)) (k : Fin 2048) (j : Fin 1024) :
    val_main_v1 (F := Ideal) x3 x5 x7 x9 (ix2 k (col2 j)) = x7 (ix2 k j) := by
  unfold val_main_v1
  exact concatenate_apply_piece (t := S2048x4096) 1 _ _ _ 2 (by show (2 : Nat) < 4; omega) S2048x1024 x7 rfl rfl 2048 rfl (ix2 k j)
    (fun b hb => by
      match b with
      | ⟨0, _⟩ => rfl
      | ⟨1, _⟩ => exact absurd rfl hb)
    rfl

/-- Column `3072 + j` of the joined weight matrix is column `j` of the output gate's matrix. -/
theorem weights_col3 (x3 x5 x7 x9 : (⟨S2048x1024, .f32⟩ : BufTy).Contents (Elt Ideal)) (k : Fin 2048) (j : Fin 1024) :
    val_main_v1 (F := Ideal) x3 x5 x7 x9 (ix2 k (col3 j)) = x9 (ix2 k j) := by
  unfold val_main_v1
  exact concatenate_apply_piece (t := S2048x4096) 1 _ _ _ 3 (by show (3 : Nat) < 4; omega) S2048x1024 x9 rfl rfl 3072 rfl (ix2 k j)
    (fun b hb => by
      match b with
      | ⟨0, _⟩ => rfl
      | ⟨1, _⟩ => exact absurd rfl hb)
    rfl

/-- Entry `0 + j` of the joined bias is entry `j` of the forget gate's bias. -/
theorem biases_col0 (x4 x6 x8 x10 : (⟨S1024, .f32⟩ : BufTy).Contents (Elt Ideal)) (j : Fin 1024) :
    val_main_v2 (F := Ideal) x4 x6 x8 x10 (ix1 (col0 j)) = x4 (ix1 j) := by
  unfold val_main_v2
  exact concatenate_apply_piece (t := S4096) 0 _ _ _ 0 (by show (0 : Nat) < 4; omega) S1024 x4 rfl rfl 0 rfl (ix1 j)
    (fun b hb => by
      match b with
      | ⟨0, _⟩ => exact absurd rfl hb)
    rfl

/-- Entry `1024 + j` of the joined bias is entry `j` of the input gate's bias. -/
theorem biases_col1 (x4 x6 x8 x10 : (⟨S1024, .f32⟩ : BufTy).Contents (Elt Ideal)) (j : Fin 1024) :
    val_main_v2 (F := Ideal) x4 x6 x8 x10 (ix1 (col1 j)) = x6 (ix1 j) := by
  unfold val_main_v2
  exact concatenate_apply_piece (t := S4096) 0 _ _ _ 1 (by show (1 : Nat) < 4; omega) S1024 x6 rfl rfl 1024 rfl (ix1 j)
    (fun b hb => by
      match b with
      | ⟨0, _⟩ => exact absurd rfl hb)
    rfl

/-- Entry `2048 + j` of the joined bias is entry `j` of the candidate gate's bias. -/
theorem biases_col2 (x4 x6 x8 x10 : (⟨S1024, .f32⟩ : BufTy).Contents (Elt Ideal)) (j : Fin 1024) :
    val_main_v2 (F := Ideal) x4 x6 x8 x10 (ix1 (col2 j)) = x8 (ix1 j) := by
  unfold val_main_v2
  exact concatenate_apply_piece (t := S4096) 0 _ _ _ 2 (by show (2 : Nat) < 4; omega) S1024 x8 rfl rfl 2048 rfl (ix1 j)
    (fun b hb => by
      match b with
      | ⟨0, _⟩ => exact absurd rfl hb)
    rfl

/-- Entry `3072 + j` of the joined bias is entry `j` of the output gate's bias. -/
theorem biases_col3 (x4 x6 x8 x10 : (⟨S1024, .f32⟩ : BufTy).Contents (Elt Ideal)) (j : Fin 1024) :
    val_main_v2 (F := Ideal) x4 x6 x8 x10 (ix1 (col3 j)) = x10 (ix1 j) := by
  unfold val_main_v2
  exact concatenate_apply_piece (t := S4096) 0 _ _ _ 3 (by show (3 : Nat) < 4; omega) S1024 x10 rfl rfl 3072 rfl (ix1 j)
    (fun b hb => by
      match b with
      | ⟨0, _⟩ => exact absurd rfl hb)
    rfl

/-! ## A band of the product is a gate -/

/-- The joined product plus bias at row `r`, column `c`, when column `c` of the joined matrix is column `j` of `W` and
    entry `c` of the joined bias is entry `j` of `b`: the sum over the 2048 rows splits into the rows that meet `x`
    and the rows that meet `h`. -/
theorem joined_eq (x0 x1 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (r : Fin 8192) (c : Fin 4096)
    (W : Cell.Weight) (b : Cell.Bias) (j : Fin 1024)
    (hW : ∀ k : Fin 2048, val_main_v1 (F := Ideal) x3 x5 x7 x9 (ix2 k c) = W (ix2 k j))
    (hb : val_main_v2 (F := Ideal) x4 x6 x8 x10 (ix1 c) = b (ix1 j)) :
    val_main_v6 (F := Ideal) x0 x1 x3 x4 x5 x6 x7 x8 x9 x10 (ix2 r c) = Cell.gate x0 x1 W b r j := by
  rw [val_main_v6_apply, val_main_v3_apply, val_main_v5_apply, val_main_v4_apply]
  have hl : ∀ k : Fin 2048, lidx_main_v3 (ix2 r c) k = ix2 r k := fun k => funext fun a => by
    match a with
    | ⟨0, _⟩ => rfl
    | ⟨1, _⟩ => rfl
  have hr : ∀ k : Fin 2048, ridx_main_v3 (ix2 r c) k = ix2 k c := fun k => funext fun a => by
    match a with
    | ⟨0, _⟩ => rfl
    | ⟨1, _⟩ => rfl
  have h2 : idx_main_v4 (idx_main_v5 (ix2 r c)) = ix1 c := funext fun a => by
    match a with
    | ⟨0, _⟩ => rfl
  rw [h2, hb]
  simp only [hl, hr, hW]
  rw [Cell.sum_halves]
  simp only [rows_upper, rows_lower]
  rfl

/-- The forget gate's slice of the joined pre-activations is the cell's forget gate. -/
theorem slice0_eq (x0 x1 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (i : S8192x1024.Idx) :
    val_main_v7 (F := Ideal) x0 x1 x3 x4 x5 x6 x7 x8 x9 x10 i = Cell.gate x0 x1 x3 x4 (i 0) (i 1) := by
  rw [val_main_v7_apply]
  have hi : idx_main_v7 i = ix2 (i 0) (col0 (i 1)) := funext fun a => by
    match a with
    | ⟨0, _⟩ => rfl
    | ⟨1, _⟩ => exact Fin.ext (by show (i 1).val = 0 + (i 1).val; omega)
  rw [hi]
  exact joined_eq x0 x1 x3 x4 x5 x6 x7 x8 x9 x10 (i 0) (col0 (i 1)) x3 x4 (i 1)
    (fun k => weights_col0 x3 x5 x7 x9 k (i 1)) (biases_col0 x4 x6 x8 x10 (i 1))

/-- The input gate's slice of the joined pre-activations is the cell's input gate. -/
theorem slice1_eq (x0 x1 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (i : S8192x1024.Idx) :
    val_main_v8 (F := Ideal) x0 x1 x3 x4 x5 x6 x7 x8 x9 x10 i = Cell.gate x0 x1 x5 x6 (i 0) (i 1) := by
  rw [val_main_v8_apply]
  have hi : idx_main_v8 i = ix2 (i 0) (col1 (i 1)) := funext fun a => by
    match a with
    | ⟨0, _⟩ => rfl
    | ⟨1, _⟩ => exact Fin.ext (by show _ = 1024 + (i 1).val; rfl)
  rw [hi]
  exact joined_eq x0 x1 x3 x4 x5 x6 x7 x8 x9 x10 (i 0) (col1 (i 1)) x5 x6 (i 1)
    (fun k => weights_col1 x3 x5 x7 x9 k (i 1)) (biases_col1 x4 x6 x8 x10 (i 1))

/-- The candidate gate's slice of the joined pre-activations is the cell's candidate gate. -/
theorem slice2_eq (x0 x1 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (i : S8192x1024.Idx) :
    val_main_v9 (F := Ideal) x0 x1 x3 x4 x5 x6 x7 x8 x9 x10 i = Cell.gate x0 x1 x7 x8 (i 0) (i 1) := by
  rw [val_main_v9_apply]
  have hi : idx_main_v9 i = ix2 (i 0) (col2 (i 1)) := funext fun a => by
    match a with
    | ⟨0, _⟩ => rfl
    | ⟨1, _⟩ => exact Fin.ext (by show _ = 2048 + (i 1).val; rfl)
  rw [hi]
  exact joined_eq x0 x1 x3 x4 x5 x6 x7 x8 x9 x10 (i 0) (col2 (i 1)) x7 x8 (i 1)
    (fun k => weights_col2 x3 x5 x7 x9 k (i 1)) (biases_col2 x4 x6 x8 x10 (i 1))

/-- The output gate's slice of the joined pre-activations is the cell's output gate. -/
theorem slice3_eq (x0 x1 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (i : S8192x1024.Idx) :
    val_main_v10 (F := Ideal) x0 x1 x3 x4 x5 x6 x7 x8 x9 x10 i = Cell.gate x0 x1 x9 x10 (i 0) (i 1) := by
  rw [val_main_v10_apply]
  have hi : idx_main_v10 i = ix2 (i 0) (col3 (i 1)) := funext fun a => by
    match a with
    | ⟨0, _⟩ => rfl
    | ⟨1, _⟩ => exact Fin.ext (by show _ = 3072 + (i 1).val; rfl)
  rw [hi]
  exact joined_eq x0 x1 x3 x4 x5 x6 x7 x8 x9 x10 (i 0) (col3 (i 1)) x9 x10 (i 1)
    (fun k => weights_col3 x3 x5 x7 x9 k (i 1)) (biases_col3 x4 x6 x8 x10 (i 1))

/-! ## The elementwise part -/

/-- The broadcast constant is the extended real one at every index. -/
theorem one_v13 (i : S8192x1024.Idx) : val_main_v13 (F := Ideal) i = 1 := by
  rw [val_main_v13_apply, val_main_cst_apply, Ideal.ofBits_def, Ideal.ofBits_one_f32]

/-- The broadcast constant is the extended real one at every index. -/
theorem one_v15 (i : S8192x1024.Idx) : val_main_v15 (F := Ideal) i = 1 := by
  rw [val_main_v15_apply, val_main_cst_0_apply, Ideal.ofBits_def, Ideal.ofBits_one_f32]

/-- The broadcast constant is the extended real one at every index. -/
theorem one_v19 (i : S8192x1024.Idx) : val_main_v19 (F := Ideal) i = 1 := by
  rw [val_main_v19_apply, val_main_cst_1_apply, Ideal.ofBits_def, Ideal.ofBits_one_f32]

/-- The broadcast constant is the extended real one at every index. -/
theorem one_v21 (i : S8192x1024.Idx) : val_main_v21 (F := Ideal) i = 1 := by
  rw [val_main_v21_apply, val_main_cst_2_apply, Ideal.ofBits_def, Ideal.ofBits_one_f32]

/-- The broadcast constant is the extended real one at every index. -/
theorem one_v26 (i : S8192x1024.Idx) : val_main_v26 (F := Ideal) i = 1 := by
  rw [val_main_v26_apply, val_main_cst_3_apply, Ideal.ofBits_def, Ideal.ofBits_one_f32]

/-- The broadcast constant is the extended real one at every index. -/
theorem one_v28 (i : S8192x1024.Idx) : val_main_v28 (F := Ideal) i = 1 := by
  rw [val_main_v28_apply, val_main_cst_4_apply, Ideal.ofBits_def, Ideal.ofBits_one_f32]

/-- One over one plus the exponential of the negated forget pre-activation is its logistic value. -/
theorem logistic0_eq (x0 x1 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (i : S8192x1024.Idx) :
    val_main_v16 (F := Ideal) x0 x1 x3 x4 x5 x6 x7 x8 x9 x10 i = Ideal.logistic (val_main_v7 (F := Ideal) x0 x1 x3 x4 x5 x6 x7 x8 x9 x10 i) := by
  rw [val_main_v16_apply, val_main_v14_apply, val_main_v12_apply, val_main_v11_apply, one_v15, one_v13]
  rfl

/-- One over one plus the exponential of the negated input pre-activation is its logistic value. -/
theorem logistic1_eq (x0 x1 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (i : S8192x1024.Idx) :
    val_main_v22 (F := Ideal) x0 x1 x3 x4 x5 x6 x7 x8 x9 x10 i = Ideal.logistic (val_main_v8 (F := Ideal) x0 x1 x3 x4 x5 x6 x7 x8 x9 x10 i) := by
  rw [val_main_v22_apply, val_main_v20_apply, val_main_v18_apply, val_main_v17_apply, one_v21, one_v19]
  rfl

/-- One over one plus the exponential of the negated output pre-activation is its logistic value. -/
theorem logistic3_eq (x0 x1 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (i : S8192x1024.Idx) :
    val_main_v29 (F := Ideal) x0 x1 x3 x4 x5 x6 x7 x8 x9 x10 i = Ideal.logistic (val_main_v10 (F := Ideal) x0 x1 x3 x4 x5 x6 x7 x8 x9 x10 i) := by
  rw [val_main_v29_apply, val_main_v27_apply, val_main_v25_apply, val_main_v24_apply, one_v28, one_v26]
  rfl

/-- The reference's new cell state is the cell's. -/
theorem newC_eq (x0 x1 x2 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) :
    Cert.ReferenceIdeal.Read.val_main_v32 (F := Ideal) x0 x1 x2 x3 x4 x5 x6 x7 x8 x9 x10 = Cert.Cell.newC x0 x1 x2 x3 x4 x5 x6 x7 x8 := by
  funext i
  rw [val_main_v32_apply, val_main_v30_apply, val_main_v31_apply, val_main_v23_apply, logistic0_eq, logistic1_eq,
    slice0_eq, slice1_eq, slice2_eq]
  rfl

/-- The reference's new hidden state is the cell's. -/
theorem newH_eq (x0 x1 x2 : (⟨S8192x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) :
    Cert.ReferenceIdeal.Read.val_main_v34 (F := Ideal) x0 x1 x2 x3 x4 x5 x6 x7 x8 x9 x10 = Cert.Cell.newH x0 x1 x2 x3 x4 x5 x6 x7 x8 x9 x10 := by
  funext i
  rw [val_main_v34_apply, val_main_v33_apply, logistic3_eq, slice3_eq, newC_eq]
  rfl

end Cert.ReferenceIdeal.RefCell

end
-- ==== Proof.lean ====
/-
  The certificate of the LSTM cell kernel against its reference, on the extended reals.

  Both programs compute, for every batch row `r` and unit `j`, the four gate pre-activations
  `[x r | h r] · W_g[:, j] + b_g[j]` (g = forget, input, candidate, output), the new cell state
  `σ(f) · c + σ(i) · tanh(g)` and the new hidden state `σ(o) · tanh(c_new)`, and return the two stacked.
  The reference forms `[x | h]` and `[W_f | W_i | W_c | W_o]` and takes one product with 2048 contracted positions;
  the kernel keeps x and h apart, lays the upper halves of the four matrices side by side and the lower halves side
  by side, and adds the two products with 1024 contracted positions each. A sum over 2048 positions is the sum of its
  two halves, in any commutative monoid: that is the one law joining the two sides, and it needs no finiteness, so
  the precondition is never opened. The logistic function is one function on both sides (the reference spells it
  `1 / (1 + e^(-t))`, which is its definition), and so is tanh; narrowing to bf16 is the identity here.

  The three frames: the reference is a host program whose run is read back whole; each kernel program is host
  operations, one pipelined region over 64 row blocks, and the stacking, run by the library's frame run around
  the region. The idealization rewrote nothing, so it is the program's own text read on the extended reals.
-/
import proofs.«118060_j19567871001103_1_alg».proof.Defs
import proofs.«118060_j19567871001103_1_alg».proof.Proof.Gen.Kernel
import proofs.«118060_j19567871001103_1_alg».proof.Proof.Gen.KernelIdeal
import proofs.«118060_j19567871001103_1_alg».proof.Proof.Gen.ReferenceIdeal
import proofs.«118060_j19567871001103_1_alg».proof.Proof.Gen.Pre_finite_inputs
import proofs.«118060_j19567871001103_1_alg».proof.Proof.Gen.ReferenceIdeal.Run
import proofs.«118060_j19567871001103_1_alg».proof.Proof.Gen.ReferenceIdeal.Read
import proofs.«118060_j19567871001103_1_alg».proof.Proof.BitsAround
import proofs.«118060_j19567871001103_1_alg».proof.Proof.IdealAround
import proofs.«118060_j19567871001103_1_alg».proof.Proof.KernelArrays
import proofs.«118060_j19567871001103_1_alg».proof.Proof.RefCell

noncomputable section

namespace Cert.Proof

open Idealize.ShloMosaic Idealize.SL.Sem

/-- The word-level kernel runs to the end and leaves its arguments as launched. -/
theorem frame_kernel : Cert.frame_Kernel := fun m ρ _ => Cert.Kernel.Around.frame m ρ

/-- So does the idealized kernel. -/
theorem frame_kernelIdeal : Cert.frame_KernelIdeal := fun m ρ _ => Cert.KernelIdeal.Around.frame m ρ

/-- The reference is a host program: its run read back, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the cell's two new states stacked: the kernel's two
    result arrays are the cell's (block by block, the blocks tiling the rows), the reference's two stages are the
    cell's (the contraction split into its halves), and both stack them the same way. -/
theorem algebraic : Cert.algebraic_KernelIdeal_ReferenceIdeal := by
  intro m ρ m' ρ' _ hagree
  refine ⟨fun c => Cert.KernelIdeal.Arrays.stacked (Cert.KernelIdeal.Arrays.cellH m c) (Cert.KernelIdeal.Arrays.cellC m c),
    Cert.KernelIdeal.Arrays.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v37_eq, h0, h1, h2, h3, h4, h5, h6, h7, h8, h9, h10]
  unfold Cert.ReferenceIdeal.Read.val_main_v37 Cert.ReferenceIdeal.Read.val_main_v35 Cert.ReferenceIdeal.Read.val_main_v36
  rw [Cert.ReferenceIdeal.RefCell.newH_eq, Cert.ReferenceIdeal.RefCell.newC_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
